-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S2x8x128 : Shape := ⟨3, ![2, 8, 128]⟩
abbrev S8192x128 : Shape := ⟨2, ![8192, 128]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Accum.lean ====
/-
  What one grid point does to the carried [8,128] accumulator, and what the last point of a run of sixteen stores.

  The body reads the two [8192,128] input blocks x0 and x1, forms max (c - (x0 - x1)) 0 entry by entry, sums it over
  the 8192 rows, and adds the resulting [1,128] row into ROW 0 of the accumulator; rows 1..7 are not touched.  We call
  this step `accum x0 x1 xs` (xs the accumulator's contents before the step).  At the first point of a run the
  accumulator is first overwritten whole by the zero block, so there the step is `accum x0 x1 zeroBlock`; at the last
  point of a run the output block is the accumulator after the step, with a leading unit axis added.
  Everything here holds for any float instance: no arithmetic is opened.
-/
import proofs.«128241_j10746008175287_2_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.Accum

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of the accumulator, as a [1,128] vector: entry (u, l) is the accumulator's entry (0, l). -/
def row0 (xs : Vec F S8x128 .f32) : Vec F S1x128 .f32 := fun x => xs (ix2 (0 : Fin 8) (x 1 : Fin 128))

/-- One step: row 0 becomes the body's row payload (old row 0 plus the block's lane sums), the other rows stay. -/
def accum (x0 x1 : Vec F S8192x128 .f32) (xs : Vec F S8x128 .f32) : Vec F S8x128 .f32 :=
  fun y => if (y 0).val = 0 then k0_pay2 x0 x1 (row0 xs) (ix2 (0 : Fin 1) (y 1 : Fin 128)) else xs y

/-- A load of the accumulator's first row reads `row0`. -/
theorem ld_row0 (xs : Vec F S8x128 .f32) :
    View.ld xs (Rect.unit (s := S8x128) ![0, 0] ![1, 128] inb_S8x128_S1x128_0_0) = row0 xs := by
  funext x
  show xs _ = xs _
  congr 1
  funext a
  apply Fin.ext
  match a with
  | ⟨0, _⟩ => show 0 + 1 * (x 0).val = 0; have := (x 0).isLt; have : (x 0).val < 1 := this; omega
  | ⟨1, _⟩ => show 0 + 1 * (x 1).val = (x 1).val; omega

/-- A buffer reading `xs`, after ONE store of the row payload through its first row, reads `accum`: an entry of
    row 0 reads the payload at its lane, an entry of another row reads what was there.  (Any view, any prior contents
    that read `xs`.) -/
theorem read_rowStore (v : View sig .tc .vmem S8x128 .f32) (f : v.ty.Contents (Elt F))
    (x0 x1 : Vec F S8192x128 .f32) (xs : Vec F S8x128 .f32) (hf : v.read (Elt F) f = xs) :
    v.read (Elt F) (v.writes (Elt F) f
      [⟨Rect.unit (s := S8x128) ![0, 0] ![1, 128] inb_S8x128_S1x128_0_0, k0_pay2 x0 x1 (row0 xs)⟩]) = accum x0 x1 xs := by
  funext y
  unfold accum
  by_cases hy : (y 0).val = 0
  · rw [if_pos hy]
    exact View.read_writes_cons_rows_of_mem v f inb_S8x128_S1x128_0_0 _ [] y
      (ix2 (0 : Fin 1) (y 1 : Fin 128)) rfl (by rw [hy]; rfl) rfl
  · rw [if_neg hy]
    rw [View.read_writes_cons_rows_of_not_mem (o := 0) (W := 1) v f inb_S8x128_S1x128_0_0 _ [] y rfl rfl
      (Or.inr (by omega))]
    rw [View.writes_nil, hf]

/-- The zero block the first point of a run stores over the whole accumulator. -/
abbrev zeroBlock : Vec F S8x128 .f32 := k0_pay1

/-- A buffer overwritten WHOLE by the zero block and then given the row payload reads `accum` of the zero block,
    whatever it held before. -/
theorem read_resetStore (v : View sig .tc .vmem S8x128 .f32) (f : v.ty.Contents (Elt F))
    (x0 x1 : Vec F S8192x128 .f32) :
    v.read (Elt F) (v.writes (Elt F) f
      [⟨Rect.unit (s := S8x128) ![0, 0] ![1, 128] inb_S8x128_S1x128_0_0, k0_pay2 x0 x1 (row0 zeroBlock)⟩,
       ⟨Rect.unit (s := S8x128) ![0, 0] ![8, 128] inb_S8x128_S8x128_0_0, zeroBlock⟩]) = accum x0 x1 zeroBlock := by
  funext y
  unfold accum
  by_cases hy : (y 0).val = 0
  · rw [if_pos hy]
    exact View.read_writes_cons_rows_of_mem v f inb_S8x128_S1x128_0_0 _ _ y
      (ix2 (0 : Fin 1) (y 1 : Fin 128)) rfl (by rw [hy]; rfl) rfl
  · rw [if_neg hy]
    rw [View.read_writes_cons_rows_of_not_mem (o := 0) (W := 1) v f inb_S8x128_S1x128_0_0 _ _ y rfl rfl
      (Or.inr (by omega))]
    exact View.read_writes_cons_unit_of_mem v f inb_S8x128_S8x128_0_0 zeroBlock [] y y hz2
      (fun a => (Nat.zero_add _).symm)

/-- A load of the first row right after the zero block was stored whole reads the zero block's first row. -/
theorem readCov_zero_row (v : View sig .tc .vmem S8x128 .f32) :
    v.readCov (Val := Elt F) [⟨Rect.unit (s := S8x128) ![0, 0] ![8, 128] inb_S8x128_S8x128_0_0, zeroBlock⟩]
      (Rect.unit (s := S8x128) ![0, 0] ![1, 128] inb_S8x128_S1x128_0_0).toLoadRect = row0 zeroBlock := by
  have hcov : ∀ y : S8x128.Idx, ∃ p ∈ ([⟨Rect.unit (s := S8x128) ![0, 0] ![8, 128] inb_S8x128_S8x128_0_0, zeroBlock⟩] :
      List (View.Piece (Elt F) S8x128 .f32)), y ∈ p.1.set :=
    fun y => ⟨_, List.mem_singleton_self _, View.mem_set_unit_zero hz2 inb_S8x128_S8x128_0_0 y⟩
  rw [View.readCov_eq_canon_ld v _ (Rect.unit (s := S8x128) ![0, 0] ![1, 128] inb_S8x128_S1x128_0_0) hcov]
  rw [View.canon_unit_zero hz2, ld_row0]

/-! ## The three cases of the body, read off the run's found pieces -/

/-- A middle point of a run (neither its first nor its last): the accumulator takes one step. -/
theorem scratch_B (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (a5 : Memref sig .tc .vmem S8x128 .f32) (h5 : a5.IsWhole) (hc0 : ¬cond0_0 i) (hc1 : ¬cond0_1 i)
    (x0 x1 : Vec F S8192x128 .f32) (xs : Vec F S8x128 .f32) :
    sout0_B_0 c i a2 h2 a3 h3 a4 h4 a5 h5 hc0 hc1 x0 x1 xs = accum x0 x1 xs := by
  unfold sout0_B_0 kernelRun0_B
  dsimp only
  simp only [View.readAt_eq_ld, h2.read_unread, h3.read_unread, h5.read_unread,
    View.ld_unit_zero (S := S8192x128) hz2, ld_row0]
  exact read_rowStore a5.view (h5.unread xs) x0 x1 xs (h5.read_unread xs)

/-- The last point of a run: the accumulator takes one step (and is then copied out, `out_C`). -/
theorem scratch_C (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (a5 : Memref sig .tc .vmem S8x128 .f32) (h5 : a5.IsWhole) (hc0 : ¬cond0_0 i) (hc1 : cond0_1 i)
    (x0 x1 : Vec F S8192x128 .f32) (xs : Vec F S8x128 .f32) :
    sout0_C_0 c i a2 h2 a3 h3 a4 h4 a5 h5 hc0 hc1 x0 x1 xs = accum x0 x1 xs := by
  unfold sout0_C_0 kernelRun0_C
  dsimp only
  sl_unfold_words
  dsimp only
  simp only [View.readAt_eq_ld, h2.read_unread, h3.read_unread, h5.read_unread,
    View.ld_unit_zero (S := S8192x128) hz2, ld_row0]
  exact read_rowStore a5.view (h5.unread xs) x0 x1 xs (h5.read_unread xs)

/-- The last point of a run stores, as the output block, the accumulator after its step with a unit axis in front. -/
theorem out_C (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (a5 : Memref sig .tc .vmem S8x128 .f32) (h5 : a5.IsWhole) (hc0 : ¬cond0_0 i) (hc1 : cond0_1 i)
    (x0 x1 : Vec F S8192x128 .f32) (xs : Vec F S8x128 .f32) :
    out0_C_2 c i a2 h2 a3 h3 a4 h4 a5 h5 hc0 hc1 x0 x1 xs = k0_pay3 (accum x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  dsimp only
  rw [View.canon_unit_zero hz3]
  simp only [View.readAt_eq_ld, h2.read_unread, h3.read_unread, h5.read_unread,
    View.ld_unit_zero (S := S8192x128) hz2, View.ld_unit_zero (S := S8x128) hz2, ld_row0]
  rw [read_rowStore a5.view (h5.unread xs) x0 x1 xs (h5.read_unread xs)]

/-- The first point of a run: the accumulator is zeroed, then takes one step. -/
theorem scratch_A (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8x128 .f32) (h4 : a4.IsWhole)
    (a5 : Memref sig .tc .vmem S8x128 .f32) (h5 : a5.IsWhole) (hc0 : cond0_0 i) (hc1 : ¬cond0_1 i)
    (x0 x1 : Vec F S8192x128 .f32) :
    sout0_A_0 c i a2 h2 a3 h3 a4 h4 a5 h5 hc0 hc1 x0 x1 = accum x0 x1 zeroBlock := by
  unfold sout0_A_0 kernelRun0_A
  dsimp only
  sl_unfold_words
  dsimp only
  rw [readCov_zero_row a5.view]
  simp only [View.readAt_eq_ld, h2.read_unread, h3.read_unread,
    View.ld_unit_zero (S := S8192x128) hz2]
  exact read_resetStore _ _ x0 x1

end Cert.KernelIdeal.Accum

end
-- ==== Proof.AccumIdeal.lean ====
/-
  The accumulator step on the extended reals.

  With c the margin constant (the value of the f32 word nearest 0.1) write hinge a b = max (c - (a - b)) 0.  For input
  blocks x0, x1 of shape [8192,128] the body's lane sums are laneSum x0 x1 l = Σ_ρ hinge (x0 (ρ,l)) (x1 (ρ,l)), ρ over
  the 8192 rows.  The row payload is the old first row plus these lane sums, the zero block is 0 everywhere, and so one
  step adds laneSum to row 0 and adds nothing to rows 1..7.
-/
import proofs.«128241_j10746008175287_2_alg».proof.Proof.Accum
import Idealize.ShloMosaic.PureOps.Ideal.Laws
import Idealize.ShloMosaic.Lib.ValueLayout

noncomputable section

open Idealize.ShloMosaic Idealize.ShloMosaic.TcCoe Idealize.SL.Sem
open Idealize.ShloMosaic.ValueIdx

namespace Cert.KernelIdeal.AccumIdeal

open Cert.KernelIdeal Cert.KernelIdeal.Gen Cert.KernelIdeal.Accum

/-- The margin: the f32 word nearest 0.1, as the exact number it denotes. -/
abbrev margin : EReal := Ideal.ofBits .f32 0x3DCCCCCD#32

/-- The hinge of one pair of entries. -/
def hinge (a b : EReal) : EReal := max (margin - (a - b)) 0

/-- Lane l's sum of the hinge over the 8192 rows of a pair of blocks. -/
def laneSum (x0 x1 : Vec Ideal S8192x128 .f32) (l : Fin 128) : EReal :=
  ∑ ρ : Fin 8192, hinge (x0 (ix2 ρ l)) (x1 (ix2 ρ l))

/-- The zero block is 0 at every entry. -/
theorem zeroBlock_apply (y : S8x128.Idx) : zeroBlock (F := Ideal) y = 0 := by
  unfold zeroBlock k0_pay1
  rw [shapeCast_self]
  exact Ideal.ofBits_zero_f32

/-- A sum over the row axis of an [8192,128] array, from the zero word, read at lane l: the sum over the rows. -/
theorem laneReduce_apply (src : FVec Ideal S8192x128 .f32) (l : Fin 128) :
    multiReduction (F := Ideal) .add [0] S128 src 0x00000000#32 reduces_S8192x128_S128 (.inl rfl) rfl (ix1 l)
      = ∑ ρ : Fin 8192, src (ix2 ρ l) :=
  (Ideal.multiReduction_add_single src 0x00000000#32 reduces_S8192x128_S128 (.inl rfl) rfl (ix1 l)).trans
    (Finset.sum_congr rfl fun ρ _ => congrArg src (funext fun a => by
      match a with
      | ⟨0, _⟩ => exact Fin.ext rfl
      | ⟨1, _⟩ => exact Fin.ext rfl))

/-- The row payload at lane l: the old row's entry plus the lane sum of the hinge. -/
theorem pay2_apply (x0 x1 : Vec Ideal S8192x128 .f32) (v14 : Vec Ideal S1x128 .f32) (u : Fin 1) (l : Fin 128) :
    k0_pay2 (F := Ideal) x0 x1 v14 (ix2 u l) = v14 (ix2 u l) + laneSum x0 x1 l := by
  unfold k0_pay2
  dsimp only
  simp only [shapeCast_self]
  rw [addf_apply, shapeCast_a_1a_apply, laneReduce_apply]
  unfold laneSum hinge
  refine congrArg (v14 (ix2 u l) + ·) (Finset.sum_congr rfl fun ρ _ => ?_)
  show max (Ideal.ofBits .f32 0x3DCCCCCD#32 - (x0 (ix2 ρ l) - x1 (ix2 ρ l))) (Ideal.ofBits .f32 0x00000000#32) = _
  rw [Ideal.ofBits_zero_f32]

/-- One step at an entry: the old entry, plus the lane sum if the entry is in row 0. -/
theorem accum_apply (x0 x1 : Vec Ideal S8192x128 .f32) (xs : Vec Ideal S8x128 .f32) (y : S8x128.Idx) :
    accum (F := Ideal) x0 x1 xs y = xs y + (if (y 0).val = 0 then laneSum x0 x1 (y 1 : Fin 128) else 0) := by
  obtain ⟨r, l, rfl⟩ : ∃ (r : Fin 8) (l : Fin 128), y = ix2 r l := ⟨y 0, y 1, eq_ix2 y⟩
  show (if r.val = 0 then k0_pay2 x0 x1 (row0 xs) (ix2 (0 : Fin 1) l) else xs (ix2 r l))
    = xs (ix2 r l) + (if r.val = 0 then laneSum x0 x1 l else 0)
  by_cases hy : r.val = 0
  · rw [if_pos hy, if_pos hy, pay2_apply]
    obtain rfl : r = 0 := Fin.ext hy
    rfl
  · rw [if_neg hy, if_neg hy, add_zero]

end Cert.KernelIdeal.AccumIdeal

end
-- ==== Proof.Fold.lean ====
/-
  The accumulator over a run of sixteen grid points, as a sum.

  The grid has 32 points; point t reads row block t of each input.  The accumulator is reset at the points that are
  multiples of 16 and stepped at every other point, so after the last point 16q + 15 of run q an entry of row 0 holds
  0 + Σ_{s<16} (lane sums of block 16q + s), and an entry of rows 1..7 holds 0 + Σ_{s<16} 0.  We write the addend of
  point n at an entry y as `addend n y` (the lane sum when y is in row 0, else 0), so both read 0 + Σ_{s<16} addend.
  At that last point the output block is the accumulator with a unit axis in front.
-/
import proofs.«128241_j10746008175287_2_alg».proof.Proof.AccumIdeal
import Idealize.ShloMosaic.Lib.Pipeline.Value
import Idealize.ShloMosaic.Lib.ValueLayout

noncomputable section

open Idealize.ShloMosaic Idealize.ShloMosaic.TcCoe Idealize.SL.Sem
open Idealize.ShloMosaic.ValueIdx
open Idealize.ShloMosaic.Pipeline (Dat)

namespace Cert.KernelIdeal.Fold

open Cert.KernelIdeal Cert.KernelIdeal.Gen Cert.KernelIdeal.Accum Cert.KernelIdeal.AccumIdeal

variable (m : (ℓ : Loc nD τ sig) → Buf (Elt Ideal) ℓ)

/-- The two input blocks at point t, as [8192,128] arrays. -/
abbrev blk0 (c : Dev nD) (t : Fin cfg0.N) : Vec Ideal S8192x128 .f32 := iblk m c 0 t
abbrev blk1 (c : Dev nD) (t : Fin cfg0.N) : Vec Ideal S8192x128 .f32 := iblk m c 1 t

/-- What point n adds to entry y of the accumulator: its block's lane sum if y is in row 0, nothing otherwise
    (and nothing for an n past the grid, which no sum below reaches). -/
def addend (c : Dev nD) (n : ℕ) (y : S8x128.Idx) : EReal :=
  if h : n < cfg0.N then
    (if (y 0).val = 0 then laneSum (blk0 m c ⟨n, h⟩) (blk1 m c ⟨n, h⟩) (y 1 : Fin 128) else 0)
  else 0

/-- After a first point of a run the accumulator is one step from the zero block. -/
theorem snd_A (c : Dev nD) (t : Fin cfg0.N) (h0 : t.val % 16 = 0) (h1 : ¬t.val % 16 = 15) :
    (outsAt0 m c t.val t.isLt).2 = accum (blk0 m c t) (blk1 m c t) zeroBlock := by
  rw [outsAt0_A m c t h0 h1]
  exact scratch_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a middle point it is one step from what the point before left. -/
theorem snd_B (c : Dev nD) (t : Fin cfg0.N) (h0 : ¬t.val % 16 = 0) (h1 : ¬t.val % 16 = 15) :
    (outsAt0 m c t.val t.isLt).2
      = accum (blk0 m c t) (blk1 m c t) (outsAt0 m c (t.val - 1) (Nat.lt_of_le_of_lt (Nat.sub_le _ _) t.isLt)).2 := by
  rw [outsAt0_B m c t h0 h1]
  exact scratch_B c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- After a last point likewise. -/
theorem snd_C (c : Dev nD) (t : Fin cfg0.N) (h0 : ¬t.val % 16 = 0) (h1 : t.val % 16 = 15) :
    (outsAt0 m c t.val t.isLt).2
      = accum (blk0 m c t) (blk1 m c t) (outsAt0 m c (t.val - 1) (Nat.lt_of_le_of_lt (Nat.sub_le _ _) t.isLt)).2 := by
  rw [outsAt0_C m c t h0 h1]
  exact scratch_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- And the output block a last point stores is the accumulator it leaves, with a unit axis in front. -/
theorem fst_C (c : Dev nD) (t : Fin cfg0.N) (h0 : ¬t.val % 16 = 0) (h1 : t.val % 16 = 15) :
    (outsAt0 m c t.val t.isLt).1 = k0_pay3 (outsAt0 m c t.val t.isLt).2 := by
  rw [outsAt0_C m c t h0 h1]
  dsimp only
  rw [out_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2,
    scratch_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2]

/-- THE FOLD: after the last point of run q the accumulator's entry y is 0 plus the sixteen addends of the run. -/
theorem scratch_fold (c : Dev nD) (q : ℕ) (h : 16 * q + 15 < cfg0.N) (y : S8x128.Idx) :
    (outsAt0 m c (16 * q + 15) h).2 y = 0 + ∑ s ∈ Finset.range 16, addend m c (16 * q + s) y := by
  have e := Pipeline.eq_accAt (N := cfg0.N) (fun n hn => (outsAt0 m c n hn).2) 16
    (fun n hn => accum (blk0 m c ⟨n, hn⟩) (blk1 m c ⟨n, hn⟩) zeroBlock)
    (fun n hn acc => accum (blk0 m c ⟨n, hn⟩) (blk1 m c ⟨n, hn⟩) acc)
    (fun n hn h0 => snd_A m c ⟨n, hn⟩ h0 (by dsimp only; omega))
    (fun n hn hne => by
      by_cases h1 : (n + 1) % 16 = 15
      · exact snd_C m c ⟨n + 1, hn⟩ hne h1
      · exact snd_B m c ⟨n + 1, hn⟩ hne h1)
    q 15 (by norm_num) h
  refine (congrFun e y).trans ?_
  exact Pipeline.accAt_add_apply (N := cfg0.N) (ι := S8x128.Idx) (β := EReal) _ _ (fun _ => 0) (addend m c) (16 * q) 15
    (fun hb i => by
      refine (accum_apply (blk0 m c ⟨16 * q, hb⟩) (blk1 m c ⟨16 * q, hb⟩) zeroBlock i).trans ?_
      rw [zeroBlock_apply]; unfold addend; rw [dif_pos hb])
    (fun n hn acc i _ _ => by
      refine (accum_apply (blk0 m c ⟨n, hn⟩) (blk1 m c ⟨n, hn⟩) acc i).trans ?_
      unfold addend; rw [dif_pos hn])
    15 le_rfl h y

/-- So the output block the last point of run q stores reads, at (u, r, l), the accumulator's entry (r, l). -/
theorem block_fold (c : Dev nD) (q : ℕ) (h : 16 * q + 15 < cfg0.N) (u : Fin 1) (r : Fin 8) (l : Fin 128) :
    (outsAt0 m c (16 * q + 15) h).1 (ix3 u r l) = 0 + ∑ s ∈ Finset.range 16, addend m c (16 * q + s) (ix2 r l) := by
  have h0 : ¬(16 * q + 15) % 16 = 0 := by omega
  have h1 : (16 * q + 15) % 16 = 15 := by omega
  rw [fst_C m c ⟨16 * q + 15, h⟩ h0 h1]
  unfold k0_pay3
  refine (shapeCast_ab_1ab_apply _ _ u r l).trans ?_
  exact scratch_fold m c q h (ix2 r l)

end Cert.KernelIdeal.Fold

end
-- ==== Proof.Blocks.lean ====
/-
  Which entries of the flat arguments a grid point reads.

  Each argument a[33554432] is first re-laid by the host as [262144,128] (entry (R, l) is a[128·R + l], the row-major
  position).  Grid point t fetches row block t of it: rows 8192·t … 8192·t + 8191.  So entry (ρ, l) of the block at
  point t is a[(8192·t + ρ)·128 + l].  The output block of point t is block t / 16 of the [2,8,128] result.
-/
import proofs.«128241_j10746008175287_2_alg».proof.Proof.Fold
import Idealize.ShloMosaic.Lib.StableHlo.Run

noncomputable section

open Idealize.ShloMosaic Idealize.ShloMosaic.TcCoe Idealize.SL.Sem
open Idealize.ShloMosaic.ValueIdx
open Idealize.ShloMosaic.Pipeline (Dat)

namespace Cert.KernelIdeal.Blocks

open Cert.KernelIdeal Cert.KernelIdeal.Gen Cert.KernelIdeal.Accum Cert.KernelIdeal.AccumIdeal Cert.KernelIdeal.Fold

variable (m : (ℓ : Loc nD τ sig) → Buf (Elt Ideal) ℓ)

/-- The input windows' block index at point t is (t, 0). -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The output window's block index at point t is (t / 16, 0, 0). -/
theorem idx_out : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- A flat argument read at a natural position (0 past its end: no position below is past it). -/
def flat (x : S33554432.Idx → EReal) (n : ℕ) : EReal := if h : n < 33554432 then x (ix1 ⟨n, h⟩) else 0

/-- The host's re-laying of a flat argument as [262144,128], read at (R, l): the argument at 128·R + l. -/
theorem relaid_apply (x : S33554432.Idx → EReal) (R : Fin 262144) (l : Fin 128) :
    shapeCast S262144x128 x shapeCasts_S33554432_S262144x128 (ix2 R l) = flat x (R.val * 128 + l.val) := by
  have hlt : R.val * 128 + l.val < 33554432 := by have := R.isLt; have := l.isLt; omega
  unfold flat
  rw [dif_pos hlt]
  exact shapeCast_apply x _ (ix2 R l) (ix1 ⟨R.val * 128 + l.val, hlt⟩) (by
    rw [Shape.rowMajor_val_one, Shape.rowMajor_val_two]
    rfl)

/-- What the region finds in the two re-laid arrays: the host's re-laying of the arguments. -/
theorem V_v0 (c : Dev nD) : (V m c main_v0 : S262144x128.Idx → EReal)
    = shapeCast S262144x128 (m ((c : Thread nD τ).loc main_arg0)) shapeCasts_S33554432_S262144x128 := by
  show StableHlo.after hostOps0 (fun b => m (c, b)) (Proc.devRef .tc main_v0) = _
  after_results
  rfl
theorem V_v1 (c : Dev nD) : (V m c main_v1 : S262144x128.Idx → EReal)
    = shapeCast S262144x128 (m ((c : Thread nD τ).loc main_arg1)) shapeCasts_S33554432_S262144x128 := by
  show StableHlo.after hostOps0 (fun b => m (c, b)) (Proc.devRef .tc main_v1) = _
  after_results
  rfl

/-- Entry (ρ, l) of the first argument's block at point t. -/
theorem blk0_apply (c : Dev nD) (t : Fin cfg0.N) (ρ : Fin 8192) (l : Fin 128) :
    blk0 m c t (ix2 ρ l) = flat (m ((c : Thread nD τ).loc main_arg0)) ((t.val * 8192 + ρ.val) * 128 + l.val) := by
  have hN : t.val < 32 := lt_of_lt_of_eq t.isLt (show cfg0.N = 32 from N_0)
  have hR : t.val * 8192 + ρ.val < 262144 := by have := ρ.isLt; omega
  obtain ⟨i0, i1, -, -⟩ := idx_in t
  refine Eq.trans ?_ (relaid_apply (m ((c : Thread nD τ).loc main_arg0)) ⟨t.val * 8192 + ρ.val, hR⟩ l)
  rw [← V_v0 m c]
  show iblk m c 0 t (ix2 ρ l) = _
  unfold iblk
  rw [View.read_apply]
  show V m c main_v0 _ = V m c main_v0 _
  congr 1
  funext a
  apply Fin.ext
  match a with
  | ⟨0, _⟩ => show win0_0.index t 0 * 8192 + 1 * ρ.val = t.val * 8192 + ρ.val; rw [i0]; omega
  | ⟨1, _⟩ => show win0_0.index t 1 * 128 + 1 * l.val = l.val; rw [i1]; omega

/-- Entry (ρ, l) of the second argument's block at point t. -/
theorem blk1_apply (c : Dev nD) (t : Fin cfg0.N) (ρ : Fin 8192) (l : Fin 128) :
    blk1 m c t (ix2 ρ l) = flat (m ((c : Thread nD τ).loc main_arg1)) ((t.val * 8192 + ρ.val) * 128 + l.val) := by
  have hN : t.val < 32 := lt_of_lt_of_eq t.isLt (show cfg0.N = 32 from N_0)
  have hR : t.val * 8192 + ρ.val < 262144 := by have := ρ.isLt; omega
  obtain ⟨-, -, i0, i1⟩ := idx_in t
  refine Eq.trans ?_ (relaid_apply (m ((c : Thread nD τ).loc main_arg1)) ⟨t.val * 8192 + ρ.val, hR⟩ l)
  rw [← V_v1 m c]
  show iblk m c 1 t (ix2 ρ l) = _
  unfold iblk
  rw [View.read_apply]
  show V m c main_v1 _ = V m c main_v1 _
  congr 1
  funext a
  apply Fin.ext
  match a with
  | ⟨0, _⟩ => show win0_1.index t 0 * 8192 + 1 * ρ.val = t.val * 8192 + ρ.val; rw [i0]; omega
  | ⟨1, _⟩ => show win0_1.index t 1 * 128 + 1 * l.val = l.val; rw [i1]; omega

end Cert.KernelIdeal.Blocks

end
-- ==== Proof.OutArray.lean ====
/-
  The [2,8,128] array the region leaves.

  The output window is written back only at the last point of each run of sixteen, t = 16q + 15, into block q of the
  result; what is written is the accumulator of that run.  So entry (q, r, l) of the result is
  0 + Σ_{s<16} addend (16q + s) (r, l): for r = 0 the sixteen lane sums of run q at lane l, for r ≥ 1 a sum of zeros.
  The two blocks tile the result, so this describes every entry.
-/
import proofs.«128241_j10746008175287_2_alg».proof.Proof.Blocks

noncomputable section

open Idealize.ShloMosaic Idealize.ShloMosaic.TcCoe Idealize.SL.Sem
open Idealize.ShloMosaic.ValueIdx
open Idealize.ShloMosaic.Pipeline (Dat)

namespace Cert.KernelIdeal.OutArray

open Cert.KernelIdeal Cert.KernelIdeal.Gen Cert.KernelIdeal.Accum Cert.KernelIdeal.AccumIdeal Cert.KernelIdeal.Fold
  Cert.KernelIdeal.Blocks

variable (m : (ℓ : Loc nD τ sig) → Buf (Elt Ideal) ℓ)

/-- Entry (q, r, l) of the result: the accumulator of run q at (r, l). -/
def resultAt (c : Dev nD) (q : Fin 2) (r : Fin 8) (l : Fin 128) : EReal :=
  0 + ∑ s ∈ Finset.range 16, addend m c (16 * q.val + s) (ix2 r l)

/-- The result array, entry by entry. -/
def result (c : Dev nD) : S2x8x128.Idx → EReal := fun z => resultAt m c (z 0) (z 1) (z 2)

theorem outs_congr (c : Dev nD) (n n' : ℕ) (e : n = n') (h : n < cfg0.N) (h' : n' < cfg0.N) :
    outsAt0 m c n h = outsAt0 m c n' h' := by subst e; rfl

/-- What the body leaves in the output's staging buffer at a last point t of a run: the run's accumulator. -/
theorem after_out (c : Dev nD) (t : Fin cfg0.N) (h15 : t.val % 16 = 15) (u : Fin 1) (r : Fin 8) (l : Fin 128) :
    (dats m 0 c).after 2 t (ix3 u r l)
      = 0 + ∑ s ∈ Finset.range 16, addend m c (16 * (t.val / 16) + s) (ix2 r l) := by
  have hN : t.val < 32 := lt_of_lt_of_eq t.isLt (show cfg0.N = 32 from N_0)
  have hlt : 16 * (t.val / 16) + 15 < cfg0.N :=
    lt_of_lt_of_eq (by omega : 16 * (t.val / 16) + 15 < 32) (show (32 : ℕ) = cfg0.N from N_0.symm)
  rw [after0_2, outs_congr m c t.val (16 * (t.val / 16) + 15) (by omega) t.isLt hlt]
  exact block_fold m c (t.val / 16) hlt u r l

/-- The write-back at a flushing point writes the result's block there. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  have hN : t.val < 32 := lt_of_lt_of_eq t.isLt (show cfg0.N = 32 from N_0)
  obtain ⟨i0, i1, i2⟩ := idx_out t
  funext y
  rw [View.read_apply]
  obtain ⟨u, r, l, hu, hr, hl⟩ : ∃ (u : Fin 1) (r : Fin 8) (l : Fin 128),
      u.val = (y 0).val ∧ r.val = (y 1).val ∧ l.val = (y 2).val := ⟨y 0, y 1, y 2, rfl, rfl, rfl⟩
  have ey : (cfg0.win 2).xinj (grid0.coords t) y = ix3 u r l :=
    funext fun a => by
      match a with
      | ⟨0, _⟩ => exact Fin.ext hu.symm
      | ⟨1, _⟩ => exact Fin.ext hr.symm
      | ⟨2, _⟩ => exact Fin.ext hl.symm
  show (dats m 0 c).after 2 t ((cfg0.win 2).xinj (grid0.coords t) y) = result m c (((cfg0.win 2).blk t).view.emb y)
  rw [ey, after_out m c t h15 u r l]
  have e0 : ((((cfg0.win 2).blk t).view.emb y) 0 : Fin 2) = ⟨t.val / 16, (by omega : t.val / 16 < 2)⟩ := Fin.ext (by
    show win0_2.index t 0 * 1 + 1 * (y 0).val = t.val / 16
    have : u.val < 1 := u.isLt
    rw [i0, ← hu]; omega)
  have e1 : ((((cfg0.win 2).blk t).view.emb y) 1 : Fin 8) = r := Fin.ext (by
    show win0_2.index t 1 * 8 + 1 * (y 1).val = r.val
    rw [i1, hr]; omega)
  have e2 : ((((cfg0.win 2).blk t).view.emb y) 2 : Fin 128) = l := Fin.ext (by
    show win0_2.index t 2 * 128 + 1 * (y 2).val = l.val
    rw [i2, hl]; omega)
  refine Eq.trans ?_ (congr (congr (congrArg (resultAt m c) e0) e1) e2).symm
  rfl

/-- Every entry (q, r, l) of the result lies in the block written back at point 16q + 15. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hlt : 16 * (i 0).val + 15 < cfg0.N := by rw [show cfg0.N = 32 from N_0]; omega
  refine ⟨⟨16 * (i 0).val + 15, hlt⟩, (flush0_2 _).mpr (by show (16 * (i 0).val + 15) % 16 = 15; omega), ?_⟩
  obtain ⟨i0, i1, i2⟩ := idx_out ⟨16 * (i 0).val + 15, hlt⟩
  show i ∈ ((View.whole main_v2).slice (win0_2.rect ⟨16 * (i 0).val + 15, hlt⟩)).set
  rw [View.set_slice_whole, Rect.mem_set_unit]
  intro a
  match a with
  | ⟨0, _⟩ =>
    show win0_2.index ⟨16 * (i 0).val + 15, hlt⟩ 0 * 1 ≤ (i 0).val
      ∧ (i 0).val < win0_2.index ⟨16 * (i 0).val + 15, hlt⟩ 0 * 1 + 1
    rw [i0]; dsimp only; omega
  | ⟨1, _⟩ =>
    show win0_2.index ⟨16 * (i 0).val + 15, hlt⟩ 1 * 8 ≤ (i 1).val
      ∧ (i 1).val < win0_2.index ⟨16 * (i 0).val + 15, hlt⟩ 1 * 8 + 8
    rw [i1]; omega
  | ⟨2, _⟩ =>
    show win0_2.index ⟨16 * (i 0).val + 15, hlt⟩ 2 * 128 ≤ (i 2).val
      ∧ (i 2).val < win0_2.index ⟨16 * (i 0).val + 15, hlt⟩ 2 * 128 + 128
    rw [i2]; omega

/-- So the result array ends holding `result`. -/
theorem final_out (c : Dev nD) : (dats m 0 c).arrAt 2 cfg0.N = result m c :=
  (dats m 0 c).arrAt_eq_of_cover 2 (result m c) (flushed_eq m c) (cover c)

end Cert.KernelIdeal.OutArray

end
-- ==== Proof.KernelValue.lean ====
/-
  What the kernel program returns.

  After the region the host sums the [2,8,128] result over all of its entries, starting from 0, and multiplies the
  sum by the constant 2^-25 (the f32 word 0x33000000).  With the region's result array known entry by entry this
  gives the program's result, and the program's run: it terminates, returns that number, and leaves both arguments
  as it found them.
-/
import proofs.«128241_j10746008175287_2_alg».proof.Proof.OutArray
import Idealize.ShloMosaic.Lib.StableHlo.Run

noncomputable section

open Idealize.ShloMosaic Idealize.ShloMosaic.TcCoe Idealize.SL.Sem
open Idealize.ShloMosaic.ValueIdx
open Idealize.ShloMosaic.Pipeline (Dat)

namespace Cert.KernelIdeal.KernelValue

open Cert.KernelIdeal Cert.KernelIdeal.Gen Cert.KernelIdeal.OutArray

variable (m : (ℓ : Loc nD τ sig) → Buf (Elt Ideal) ℓ) (ρ : Dev nD → PrngReg)

/-- The program's result: the host's total of the region's result array, times the scale word. -/
def kernelOut (c : Dev nD) : S_.Idx → EReal :=
  mulf (Host.reduceAdd (F := Ideal) (result m c) (constant (F := Ideal) S_ .f32 0x00000000#32)
      reducesTo_S2x8x128_S_d0_1_2 h_S_)
    (constant (F := Ideal) S_ .f32 0x33000000#32)

/-- The host lines after the region compute it from the array the region left. -/
theorem tail_eq (c : Dev nD) :
    Pipeline.afterTail₀ cfgs (dats m) 0 (V0 m) [hostOps1] c main_v4 = kernelOut m c := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2) = result m c :=
    (Pipeline.withArrays_arr spec0 launch0.win.arr_inj c _ _ 2).trans (final_out m c)
  rw [e]
  rfl

/-- At its one index: 0 plus the total of the result array, times the scale word's value. -/
theorem kernelOut_apply (c : Dev nD) (i : S_.Idx) :
    kernelOut m c i
      = (Ideal.ofBits .f32 0x00000000#32 + ∑ z : S2x8x128.Idx, result m c z) * Ideal.ofBits .f32 0x33000000#32 := by
  unfold kernelOut
  show Host.reduceAdd (F := Ideal) (result m c) (constant (F := Ideal) S_ .f32 0x00000000#32)
      reducesTo_S2x8x128_S_d0_1_2 h_S_ i * Ideal.ofBits .f32 0x33000000#32 = _
  simp only [Host.reduceAdd, Ideal.hostReduceAdd_def]
  rw [Ideal.hostReduceAdd_total reducesTo_S2x8x128_S_d0_1_2 (fun b => b.elim0) (result m c) _ i]
  rfl

/-- THE RUN of the kernel program on the extended reals: every weakly fair execution terminates with the result at
    `kernelOut` and the two arguments unchanged. -/
theorem run : θ_run defs (onTc (τ := τ) (main (F := Ideal))) ⟨m, fun _ => 0, ρ⟩ (fun r => ∀ c : Dev nD,
      r.2.mem ((c.tc : Thread nD τ).loc main_v4) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelValue

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.LibIdxSums.lean ====
/-
  Sums over the index sets of arrays of rank 1 and rank 3, as sums over their coordinates.

  An index of a rank-n array is the tuple of its coordinates, so its index set is in bijection with the product of
  the coordinate ranges, and a sum over it (in any commutative additive monoid) is the iterated sum over the
  coordinates: ∑_i f i = ∑_a f (a) at rank 1, ∑_i f i = ∑_a ∑_b ∑_c f (a, b, c) at rank 3.  (The library has the
  rank-2 form, `ValueIdx.sum_idx2`.)  A host reduction over every axis reads as a sum over the whole index set; these
  turn it into coordinate sums that can be re-ordered and re-grouped.
-/
import Idealize.ShloMosaic.Lib.ValueIdx

open Idealize.ShloMosaic Idealize.ShloMosaic.ValueIdx
open scoped BigOperators

namespace Cert.IdxSums

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.IdxSums
-- ==== Proof.MeanLaw.lean ====
/-
  The law that joins the kernel to the reference: a sum taken block by block is the sum, and multiplying by 2^-25
  is dividing by 2^25.

  Write H n = hinge (a n) (b n) for the flat position n < 2^25.  The kernel's result array has, at (q, 0, l), the sum
  over the sixteen points s of run q and the 8192 rows ρ of a block of H (((16q + s)·8192 + ρ)·128 + l), and 0 in
  rows 1..7.  Its total over (q, r, l) is therefore Σ_q Σ_l Σ_s Σ_ρ H(…), and since
      n = ((16q + s)·8192 + ρ)·128 + l
  runs over every n < 2^25 exactly once (2·16·8192·128 = 2^25, peeled one factor at a time), that total is Σ_n H n,
  the reference's sum.  Only commutativity and associativity of + are used, so infinities do no harm.  Finally the
  kernel multiplies by the word 0x33000000 = 2^-25 where the reference divides by 0x4C000000 = 2^25: the same
  operation on every extended real.
-/
import proofs.«128241_j10746008175287_2_alg».proof.Proof.KernelValue
import proofs.«128241_j10746008175287_2_alg».proof.Proof.LibTileSum
import proofs.«128241_j10746008175287_2_alg».proof.Proof.LibIdxSums

noncomputable section

open Idealize.ShloMosaic Idealize.ShloMosaic.TcCoe Idealize.SL.Sem
open Idealize.ShloMosaic.ValueIdx
open Idealize.ShloMosaic.Pipeline (Dat)
open scoped BigOperators

namespace Cert.KernelIdeal.MeanLaw

open Cert.KernelIdeal Cert.KernelIdeal.Gen Cert.KernelIdeal.AccumIdeal Cert.KernelIdeal.Fold
  Cert.KernelIdeal.Blocks Cert.KernelIdeal.OutArray Cert.KernelIdeal.KernelValue
open Cert.IdxSums (sum_idx1 sum_idx3)

/-! ## The grid's order of summation -/

/-- Summing H over run q < 2, lane l < 128, point s < 16 of the run and row ρ < 8192 at the flat position
    ((16q + s)·8192 + ρ)·128 + l is summing H over every position below 2^25. -/
theorem grid_sum {β : Type*} [AddCommMonoid β] (H : ℕ → β) :
    ∑ q : Fin 2, ∑ l : Fin 128, ∑ s ∈ Finset.range 16, ∑ ρ : Fin 8192,
        H (((16 * q.val + s) * 8192 + ρ.val) * 128 + l.val)
      = ∑ n : Fin 33554432, H n.val := by
  -- the lanes of row R, the rows of block t
  let g : ℕ → β := fun R => ∑ l : Fin 128, H (128 * R + l.val)
  let k : ℕ → β := fun t => ∑ ρ : Fin 8192, g (8192 * t + ρ.val)
  have hA : ∀ q : Fin 2, ∑ l : Fin 128, ∑ s ∈ Finset.range 16, ∑ ρ : Fin 8192,
      H (((16 * q.val + s) * 8192 + ρ.val) * 128 + l.val) = ∑ s : Fin 16, k (16 * q.val + s.val) := by
    intro q
    rw [Finset.sum_comm, Finset.sum_range]
    refine Finset.sum_congr rfl fun s _ => ?_
    rw [Finset.sum_comm]
    refine Finset.sum_congr rfl fun ρ _ => Finset.sum_congr rfl fun l _ => congrArg H ?_
    ring
  calc ∑ q : Fin 2, ∑ l : Fin 128, ∑ s ∈ Finset.range 16, ∑ ρ : Fin 8192,
          H (((16 * q.val + s) * 8192 + ρ.val) * 128 + l.val)
      = ∑ q : Fin 2, ∑ s : Fin 16, k (16 * q.val + s.val) := Finset.sum_congr rfl fun q _ => hA q
    _ = ∑ q ∈ Finset.range 2, ∑ s : Fin 16, k (16 * q + s.val) :=
        (Finset.sum_range fun q => ∑ s : Fin 16, k (16 * q + s.val)).symm
    _ = ∑ t : Fin (2 * 16), k t.val := Cert.TileSum.sum_tiles 2 16 k
    _ = ∑ t ∈ Finset.range 32, k t := (Finset.sum_range k).symm
    _ = ∑ R : Fin (32 * 8192), g R.val := Cert.TileSum.sum_tiles 32 8192 g
    _ = ∑ R ∈ Finset.range 262144, g R := (Finset.sum_range g).symm
    _ = ∑ n : Fin (262144 * 128), H n.val := Cert.TileSum.sum_tiles 262144 128 H
    _ = ∑ n : Fin 33554432, H n.val := rfl

/-! ## The scale -/

/-- The reference's divisor word is 2^25. -/
theorem ofBits_pow25 : Ideal.ofBits .f32 0x4C000000#32 = ((33554432 : ℝ) : EReal) := by
  simp [Ideal.ofBits, Ideal.ieee, -EReal.coe_mul]; norm_num

/-- The kernel's factor word is 2^-25. -/
theorem ofBits_inv_pow25 : Ideal.ofBits .f32 0x33000000#32 = ((1 / 33554432 : ℝ) : EReal) := by
  simp [Ideal.ofBits, Ideal.ieee, -EReal.coe_mul]; norm_num

/-- Multiplying by 2^-25 is dividing by 2^25, on every extended real. -/
theorem scale_eq (x : EReal) :
    x * Ideal.ofBits .f32 0x33000000#32 = Ideal.div x (Ideal.ofBits .f32 0x4C000000#32) := by
  rw [ofBits_pow25, ofBits_inv_pow25, Ideal.div_coe (by norm_num : (33554432 : ℝ) ≠ 0)]

/-! ## The kernel's result is the mean of the hinge -/

/-- The hinge at flat position n of the two arguments. -/
def hingeAt (A B : S33554432.Idx → EReal) (n : ℕ) : EReal := hinge (flat A n) (flat B n)

/-- The mean of the hinge as the reference spells it: 0 plus the sum over every entry, divided by 2^25. -/
def spec (A B : S33554432.Idx → EReal) : S_.Idx → EReal := fun _ =>
  Ideal.div (0 + ∑ j : S33554432.Idx, hinge (A j) (B j)) (Ideal.ofBits .f32 0x4C000000#32)

/-- The reference's sum, over flat positions. -/
theorem sum_entries (A B : S33554432.Idx → EReal) :
    ∑ j : S33554432.Idx, hinge (A j) (B j) = ∑ n : Fin 33554432, hingeAt A B n.val := by
  rw [sum_idx1]
  refine Finset.sum_congr rfl fun n _ => ?_
  unfold hingeAt flat
  rw [dif_pos n.isLt, dif_pos n.isLt]

variable (m : (ℓ : Loc nD τ sig) → Buf (Elt Ideal) ℓ)

/-- The two arguments as the program finds them. -/
abbrev argA (c : Dev nD) : S33554432.Idx → EReal := m ((c : Thread nD τ).loc main_arg0)
abbrev argB (c : Dev nD) : S33554432.Idx → EReal := m ((c : Thread nD τ).loc main_arg1)

/-- The lane sums of the blocks at point t, over flat positions. -/
theorem laneSum_blocks (c : Dev nD) (t : Fin cfg0.N) (l : Fin 128) :
    laneSum (blk0 m c t) (blk1 m c t) l
      = ∑ ρ : Fin 8192, hingeAt (argA m c) (argB m c) ((t.val * 8192 + ρ.val) * 128 + l.val) :=
  Finset.sum_congr rfl fun ρ _ => congrArg₂ hinge (blk0_apply m c t ρ l) (blk1_apply m c t ρ l)

/-- Row 0 of the result: the sixteen points of the run and the rows of each block. -/
theorem resultAt_row0 (c : Dev nD) (q : Fin 2) (l : Fin 128) :
    resultAt m c q 0 l = ∑ s ∈ Finset.range 16, ∑ ρ : Fin 8192,
      hingeAt (argA m c) (argB m c) (((16 * q.val + s) * 8192 + ρ.val) * 128 + l.val) := by
  unfold resultAt
  rw [zero_add]
  refine Finset.sum_congr rfl fun s hs => ?_
  have hs' : s < 16 := Finset.mem_range.mp hs
  have hq : q.val < 2 := q.isLt
  have hlt : 16 * q.val + s < cfg0.N :=
    lt_of_lt_of_eq (by omega : 16 * q.val + s < 32) (show (32 : ℕ) = cfg0.N from N_0.symm)
  unfold addend
  rw [dif_pos hlt]
  refine (if_pos (rfl : ((ix2 (0 : Fin 8) l) 0).val = 0)).trans ?_
  exact laneSum_blocks m c ⟨16 * q.val + s, hlt⟩ l

/-- Rows 1..7 of the result are 0. -/
theorem resultAt_rest (c : Dev nD) (q : Fin 2) (r : Fin 8) (hr : r.val ≠ 0) (l : Fin 128) :
    resultAt m c q r l = 0 := by
  unfold resultAt
  rw [zero_add]
  refine Finset.sum_eq_zero fun s _ => ?_
  unfold addend
  by_cases hlt : 16 * q.val + s < cfg0.N
  · rw [dif_pos hlt, if_neg hr]
  · rw [dif_neg hlt]

/-- The total of the result array is the sum of the hinge over every flat position. -/
theorem total_eq (c : Dev nD) :
    ∑ z : S2x8x128.Idx, result m c z = ∑ n : Fin 33554432, hingeAt (argA m c) (argB m c) n.val := by
  rw [sum_idx3]
  refine Eq.trans ?_ (grid_sum (hingeAt (argA m c) (argB m c)))
  refine Finset.sum_congr rfl fun q _ => ?_
  rw [Fin.sum_univ_succ]
  have hrest : ∑ r : Fin 7, ∑ l : Fin 128, result m c (ix3 q r.succ l) = 0 :=
    Finset.sum_eq_zero fun r _ => Finset.sum_eq_zero fun l _ =>
      resultAt_rest m c q r.succ (by simp) l
  rw [hrest, add_zero]
  exact Finset.sum_congr rfl fun l _ => resultAt_row0 m c q l

/-- THE KERNEL'S RESULT is the mean of the hinge, in the reference's spelling. -/
theorem kernelOut_eq (c : Dev nD) : kernelOut m c = spec (argA m c) (argB m c) := by
  funext i
  rw [kernelOut_apply, Ideal.ofBits_zero_f32, total_eq, scale_eq]
  unfold spec
  rw [sum_entries]

end Cert.KernelIdeal.MeanLaw

end
-- ==== Proof.RefSide.lean ====
/-
  The reference returns the same mean.

  The reference forms hinge (a j) (b j) = max (c - (a j - b j)) 0 at every entry j of the flat arguments, sums the
  entries starting from 0, and divides by 2^25: its result, read one operation at a time, is `spec a b` word for word.
-/
import proofs.«128241_j10746008175287_2_alg».proof.Proof.MeanLaw
import proofs.«128241_j10746008175287_2_alg».proof.Proof.Gen.ReferenceIdeal.Read

noncomputable section

open Idealize.ShloMosaic Idealize.ShloMosaic.TcCoe Idealize.SL.Sem

namespace Cert.ReferenceIdeal.RefValue

open Cert.ReferenceIdeal Cert.ReferenceIdeal.Gen Cert.ReferenceIdeal.Read
open Cert.KernelIdeal.AccumIdeal (hinge margin)

/-- The reference's entry j before the sum: the hinge of the two arguments' entries. -/
theorem relu_apply (x0 x1 : (⟨S33554432, .f32⟩ : BufTy).Contents (Elt Ideal)) (j : S33554432.Idx) :
    val_main_v3 (F := Ideal) x0 x1 j = hinge (x0 j) (x1 j) := by
  rw [val_main_v3_apply, val_main_v2_apply, val_main_v1_apply, val_main_cst_apply, val_main_v0_apply,
    val_main_call0_v0_apply, val_main_call0_cst_apply]
  show max (Ideal.ofBits .f32 0x3DCCCCCD#32 - (x0 j - x1 j)) (Ideal.ofBits .f32 0x00000000#32) = _
  rw [Ideal.ofBits_zero_f32]
  rfl

/-- The reference's result is the mean of the hinge. -/
theorem ref_eq_spec (x0 x1 : (⟨S33554432, .f32⟩ : BufTy).Contents (Elt Ideal)) :
    val_main_v5 (F := Ideal) x0 x1 = Cert.KernelIdeal.MeanLaw.spec x0 x1 := by
  funext i
  rw [val_main_v5_apply]
  show Ideal.div (val_main_v4 (F := Ideal) x0 x1 i) (Ideal.ofBits .f32 0x4C000000#32)
    = Ideal.div (0 + ∑ j : S33554432.Idx, hinge (x0 j) (x1 j)) (Ideal.ofBits .f32 0x4C000000#32)
  rw [val_main_v4_apply]
  refine congrArg (Ideal.div · (Ideal.ofBits .f32 0x4C000000#32)) ?_
  show Ideal.ofBits .f32 0x00000000#32 + ∑ j : S33554432.Idx, val_main_v3 (F := Ideal) x0 x1 j = _
  rw [Ideal.ofBits_zero_f32]
  exact congrArg (0 + ·) (Finset.sum_congr rfl fun j _ => relu_apply x0 x1 j)

end Cert.ReferenceIdeal.RefValue

end
-- ==== Proof.lean ====
/-
  The hinge-margin mean: a two-core, sixteen-step grid accumulation against jnp's mean of relu.

  Both programs take two flat arrays a, b of 2^25 floats.  With c the value of the f32 word nearest 0.1 and
  hinge x y = max (c - (x - y)) 0, the reference returns (0 + Σ_j hinge (a j) (b j)) / 2^25.  The kernel re-lays each
  array as [262144,128], walks its 32 row blocks of 8192 rows in two runs of sixteen grid points, adds each block's
  lane sums of the hinge into row 0 of an [8,128] accumulator that it resets at the start of a run, copies the
  accumulator out at the end of a run, and finally has the host total the [2,8,128] result and multiply by 2^-25.

  On the extended reals the two results are the same number: the kernel's nested sum visits every flat position
  ((16q + s)·8192 + ρ)·128 + l exactly once (Proof/MeanLaw.lean `grid_sum`; only commutativity and associativity of +,
  so no finiteness is needed), rows 1..7 of the accumulator stay 0, and multiplying by 2^-25 is dividing by 2^25
  on every extended real (`scale_eq`).  The road: what one grid point does to the accumulator (Proof/Accum.lean, for
  any float instance; Proof/AccumIdeal.lean on the extended reals), the accumulator after a run as a sum
  (Proof/Fold.lean), which flat positions a block holds (Proof/Blocks.lean), the result array entry by entry
  (Proof/OutArray.lean), the kernel program's run and result (Proof/KernelValue.lean), the joining law
  (Proof/MeanLaw.lean), and the reference read one operation at a time (Proof/RefSide.lean).
  The ideal pass rewrote nothing, so the kernel's idealization is its own text read on the extended reals.
-/
import proofs.«128241_j10746008175287_2_alg».proof.Defs
import proofs.«128241_j10746008175287_2_alg».proof.Proof.Gen.Kernel
import proofs.«128241_j10746008175287_2_alg».proof.Proof.Gen.Kernel.Skeleton
import proofs.«128241_j10746008175287_2_alg».proof.Proof.Gen.Kernel.Launch
import proofs.«128241_j10746008175287_2_alg».proof.Proof.Gen.Kernel.Points
import proofs.«128241_j10746008175287_2_alg».proof.Proof.Gen.Kernel.Frame
import proofs.«128241_j10746008175287_2_alg».proof.Proof.Gen.KernelIdeal
import proofs.«128241_j10746008175287_2_alg».proof.Proof.Gen.KernelIdeal.Skeleton
import proofs.«128241_j10746008175287_2_alg».proof.Proof.Gen.KernelIdeal.Launch
import proofs.«128241_j10746008175287_2_alg».proof.Proof.Gen.KernelIdeal.Points
import proofs.«128241_j10746008175287_2_alg».proof.Proof.Gen.KernelIdeal.Frame
import proofs.«128241_j10746008175287_2_alg».proof.Proof.Gen.ReferenceIdeal
import proofs.«128241_j10746008175287_2_alg».proof.Proof.Gen.ReferenceIdeal.Run
import proofs.«128241_j10746008175287_2_alg».proof.Proof.Gen.ReferenceIdeal.Read
import proofs.«128241_j10746008175287_2_alg».proof.Proof.Gen.Pre_finite_inputs
import proofs.«128241_j10746008175287_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals, from memories that agree on the two arguments, the kernel ends at `kernelOut` and the
    reference at its composed term; both are the mean of the hinge (`kernelOut_eq`, `ref_eq_spec`). -/
theorem algebraic : Cert.algebraic_KernelIdeal_ReferenceIdeal := by
  intro m ρ m' ρ' _ hagree
  refine ⟨fun c => Cert.KernelIdeal.KernelValue.kernelOut m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq_spec, (hagree c).1, (hagree c).2]
  exact (Cert.KernelIdeal.MeanLaw.kernelOut_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
